-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S32x1024x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S1024x1024 : Shape := ⟨2, ![1024, 1024]⟩
abbrev S_ : Shape := ⟨0, ![]⟩
abbrev S1 : Shape := ⟨1, ![1]⟩
abbrev S32768x1024 : Shape := ⟨2, ![32768, 1024]⟩
abbrev S1024x3072 : Shape := ⟨2, ![1024, 3072]⟩
abbrev S1x3072 : Shape := ⟨2, ![1, 3072]⟩
abbrev S32768x3072 : Shape := ⟨2, ![32768, 3072]⟩
abbrev S512x1024 : Shape := ⟨2, ![512, 1024]⟩
abbrev S512x3072 : Shape := ⟨2, ![512, 3072]⟩
abbrev S32x1024x3072 : Shape := ⟨3, ![32, 1024, 3072]⟩

abbrev nBuf : Space → Nat
  | .hbm => 27
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .i32⟩
  | .hbm, ⟨16, _⟩ => ⟨S1, .i32⟩
  | .hbm, ⟨17, _⟩ => ⟨S3072x1024, .f32⟩
  | .hbm, ⟨18, _⟩ => ⟨S_, .i32⟩
  | .hbm, ⟨19, _⟩ => ⟨S1, .i32⟩
  | .hbm, ⟨20, _⟩ => ⟨S3072x1024, .f32⟩
  | .hbm, ⟨21, _⟩ => ⟨S32768x1024, .f32⟩
  | .hbm, ⟨22, _⟩ => ⟨S1024x3072, .f32⟩
  | .hbm, ⟨23, _⟩ => ⟨S1024x3072, .bf16⟩
  | .hbm, ⟨24, _⟩ => ⟨S1x3072, .f32⟩
  | .hbm, ⟨25, _⟩ => ⟨S32768x3072, .f32⟩
  | .hbm, ⟨26, _⟩ => ⟨S32x1024x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  bcast_S_S1 : S_.BroadcastsInDim S1 (![] : Fin 0 → Fin S1.rank)
  shapeCasts_S32x1024x1024_S32768x1024 : S32x1024x1024.ShapeCasts S32768x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S32768x3072_S32x1024x3072 : S32768x3072.ShapeCasts S32x1024x3072
  dot_S1024x16_S16x1024_S1024x1024_1_0_0_1_n_n_wf : DotDims.WF S1024x16 S16x1024 S1024x1024 [1] [0] [0] [1] [] []
  scatter_S3072x1024_S1_S1024x1024_01_n_0_0_wf : ScatterDims.WF S3072x1024 S1 S1024x1024 [0, 1] [] [0] 0
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S32768x3072.size a
  hwx0_3 : ∀ i : grid0.Coords, EltTy.bits .f32 = 32 ∨ (Rect.block (s := S32768x3072) S512x3072.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def scatter_S3072x1024_S1_S1024x1024_01_n_0_0 : ScatterDims S3072x1024 S1 S1024x1024 where
  updateWindowDims := [0, 1]
  insertedWindowDims := []
  scatterDimsToOperandDims := [0]
  indexVectorDim := 0
  wf := scatter_S3072x1024_S1_S1024x1024_01_n_0_0_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S32x1024x3072 : Shape := ⟨3, ![32, 1024, 3072]⟩
abbrev S1x1x3072 : Shape := ⟨3, ![1, 1, 3072]⟩
abbrev S32x1024x16 : Shape := ⟨3, ![32, 1024, 16]⟩
abbrev S_ : Shape := ⟨0, ![]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S32x1024x3072, .f32⟩
  | .hbm, ⟨8, _⟩ => ⟨S1x1x3072, .f32⟩
  | .hbm, ⟨9, _⟩ => ⟨S32x1024x3072, .f32⟩
  | .hbm, ⟨10, _⟩ => ⟨S32x1024x3072, .f32⟩
  | .hbm, ⟨11, _⟩ => ⟨S32x1024x16, .f32⟩
  | .hbm, ⟨12, _⟩ => ⟨S32x1024x1024, .f32⟩
  | .hbm, ⟨13, _⟩ => ⟨S_, .f32⟩
  | .hbm, ⟨14, _⟩ => ⟨S32x1024x1024, .f32⟩
  | .hbm, ⟨15, _⟩ => ⟨S32x1024x1024, .f32⟩
  | .hbm, ⟨16, _⟩ => ⟨S32x1024x16, .f32⟩
  | .hbm, ⟨17, _⟩ => ⟨S32x1024x1024, .f32⟩
  | .hbm, ⟨18, _⟩ => ⟨S_, .f32⟩
  | .hbm, ⟨19, _⟩ => ⟨S32x1024x1024, .f32⟩
  | .hbm, ⟨20, _⟩ => ⟨S32x1024x1024, .f32⟩
  | .hbm, ⟨21, _⟩ => ⟨S_, .i32⟩
  | .hbm, ⟨22, _⟩ => ⟨S1, .i32⟩
  | .hbm, ⟨23, _⟩ => ⟨S32x1024x3072, .f32⟩
  | .hbm, ⟨24, _⟩ => ⟨S_, .i32⟩
  | .hbm, ⟨25, _⟩ => ⟨S1, .i32⟩
  | .hbm, ⟨26, _⟩ => ⟨S32x1024x3072, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S32x1024x3072_0_1_2 : S1x1x3072.BroadcastsInDim S32x1024x3072 (![0, 1, 2] : Fin 3 → Fin S32x1024x3072.rank)
  bcast_S_S32x1024x1024 : S_.BroadcastsInDim S32x1024x1024 (![] : Fin 0 → Fin S32x1024x1024.rank)
  bcast_S_S1 : S_.BroadcastsInDim S1 (![] : Fin 0 → Fin S1.rank)
  dot_S32x1024x1024_S3072x1024_S32x1024x3072_2_1_01_0_n_n_wf : DotDims.WF S32x1024x1024 S3072x1024 S32x1024x3072 [2] [1] [0, 1] [0] [] []
  dot_S32x1024x1024_S16x1024_S32x1024x16_2_1_01_0_n_n_wf : DotDims.WF S32x1024x1024 S16x1024 S32x1024x16 [2] [1] [0, 1] [0] [] []
  dot_S32x1024x16_S1024x16_S32x1024x1024_2_1_01_0_n_n_wf : DotDims.WF S32x1024x16 S1024x16 S32x1024x1024 [2] [1] [0, 1] [0] [] []
  scatter_S32x1024x3072_S1_S32x1024x1024_012_n_2_0_wf : ScatterDims.WF S32x1024x3072 S1 S32x1024x1024 [0, 1, 2] [] [2] 0

variable [Facts₀]

def dot_S32x1024x1024_S3072x1024_S32x1024x3072_2_1_01_0_n_n : DotDims S32x1024x1024 S3072x1024 S32x1024x3072 where
  lhsContracting := [2]
  rhsContracting := [1]
  lhsNonContracting := [0, 1]
  rhsNonContracting := [0]
  lhsBatch := []
  rhsBatch := []
  wf := dot_S32x1024x1024_S3072x1024_S32x1024x3072_2_1_01_0_n_n_wf
def dot_S32x1024x1024_S16x1024_S32x1024x16_2_1_01_0_n_n : DotDims S32x1024x1024 S16x1024 S32x1024x16 where
  lhsContracting := [2]
  rhsContracting := [1]
  lhsNonContracting := [0, 1]
  rhsNonContracting := [0]
  lhsBatch := []
  rhsBatch := []
  wf := dot_S32x1024x1024_S16x1024_S32x1024x16_2_1_01_0_n_n_wf
def dot_S32x1024x16_S1024x16_S32x1024x1024_2_1_01_0_n_n : DotDims S32x1024x16 S1024x16 S32x1024x1024 where
  lhsContracting := [2]
  rhsContracting := [1]
  lhsNonContracting := [0, 1]
  rhsNonContracting := [0]
  lhsBatch := []
  rhsBatch := []
  wf := dot_S32x1024x16_S1024x16_S32x1024x1024_2_1_01_0_n_n_wf
def scatter_S32x1024x3072_S1_S32x1024x1024_012_n_2_0 : ScatterDims S32x1024x3072 S1 S32x1024x1024 where
  updateWindowDims := [0, 1, 2]
  insertedWindowDims := []
  scatterDimsToOperandDims := [2]
  indexVectorDim := 0
  wf := scatter_S32x1024x3072_S1_S32x1024x1024_012_n_2_0_wf

class Facts : Prop extends Facts₀ where

variable [Facts]
-- ==== Proof.Spec.lean ====
/-
  The fused query/key/value projection with two low-rank corrections, as one function of the seven argument arrays.

  With `x` of shape [32, 1024, 1024] (batch, token, feature), `W` of shape [3072, 1024] (output, feature), a bias `b` of
  3072 entries, and two rank-16 pairs `(A_q, B_q)`, `(A_v, B_v)` (`A` of shape [16, 1024], `B` of shape [1024, 16]):

      out (β, n, o) = Σ_k x (β, n, k) · W_eff (o, k) + b (o)

  where `W_eff` is `W` with `s · (B_q A_q)` added onto output rows 0 … 1023 and `s · (B_v A_v)` onto rows 2048 … 3071
  (`s` the scale the programs multiply by, the float 1.0), rows 1024 … 2047 left as they are. This is the form the
  kernel computes; `Proof/RefIsSpec.lean` shows that the reference's form — the plain projection with the two low-rank
  products of the ACTIVATIONS added afterwards — is the same function of finite arguments.
-/
import Idealize.ShloMosaic.Lib.ValueIdx
import Idealize.ShloMosaic.PureOps.Ideal
import Idealize.ShloMosaic.PureOps.IdealRules

noncomputable section

namespace Cert.QkvSpec

open Idealize.ShloMosaic Idealize.ShloMosaic.ValueIdx

abbrev SX : Shape := ⟨3, ![32, 1024, 1024]⟩
abbrev SW : Shape := ⟨2, ![3072, 1024]⟩
abbrev SB : Shape := ⟨1, ![3072]⟩
abbrev SA : Shape := ⟨2, ![16, 1024]⟩
abbrev SBr : Shape := ⟨2, ![1024, 16]⟩
abbrev SD : Shape := ⟨2, ![1024, 1024]⟩
abbrev SO : Shape := ⟨3, ![32, 1024, 3072]⟩

/-- The scale both programs multiply the low-rank products by: the float 1.0. -/
abbrev scale : EReal := Ideal.ofBits .f32 0x3F800000#32

/-- The float 1.0 denotes the number one. -/
theorem scale_eq_one : scale = 1 := IdealRules.sign_bit.ideal_onePat .f32

/-- Every entry of an array is a real number. -/
def AllFinite {S : Shape} (x : S.Idx → EReal) : Prop := ∀ i, ∃ v : ℝ, x i = v

/-- The scaled rank-16 product `s · (B A)`, a 1024 × 1024 matrix. -/
def lowRank (B : SBr.Idx → EReal) (A : SA.Idx → EReal) : SD.Idx → EReal :=
  fun j => scale * ∑ r : Fin 16, B (ix2 (j 0) r) * A (ix2 r (j 1))

/-- `X` with `U` added onto rows `c … c + 1023`. -/
def addRows (c : Nat) (X : SW.Idx → EReal) (U : SD.Idx → EReal) : SW.Idx → EReal :=
  fun i => if h : c ≤ (i 0).val ∧ (i 0).val < c + 1024 then X i + U (ix2 ⟨(i 0).val - c, by omega⟩ (i 1)) else X i

/-- The effective weight. -/
def effWeight (W : SW.Idx → EReal) (Aq : SA.Idx → EReal) (Bq : SBr.Idx → EReal) (Av : SA.Idx → EReal) (Bv : SBr.Idx → EReal) :
    SW.Idx → EReal :=
  addRows 2048 (addRows 0 W (lowRank Bq Aq)) (lowRank Bv Av)

/-- The result. -/
def out (x : SX.Idx → EReal) (W : SW.Idx → EReal) (b : SB.Idx → EReal) (Aq : SA.Idx → EReal) (Bq : SBr.Idx → EReal)
    (Av : SA.Idx → EReal) (Bv : SBr.Idx → EReal) : SO.Idx → EReal :=
  fun i => (∑ k : Fin 1024, x (ix3 (i 0) (i 1) k) * effWeight W Aq Bq Av Bv (ix2 (i 2) k)) + b (ix1 (i 2))

/-! ## The effective weight, band by band -/

variable (W : SW.Idx → EReal) (Aq : SA.Idx → EReal) (Bq : SBr.Idx → EReal) (Av : SA.Idx → EReal) (Bv : SBr.Idx → EReal)

/-- Rows 0 … 1023 (the query band): `W + s · (B_q A_q)`. -/
theorem effWeight_query (o : Fin 3072) (k : Fin 1024) (h : o.val < 1024) :
    effWeight W Aq Bq Av Bv (ix2 o k) = W (ix2 o k) + scale * ∑ r : Fin 16, Bq (ix2 ⟨o.val, h⟩ r) * Aq (ix2 r k) := by
  unfold effWeight addRows
  have h2 : ¬(2048 ≤ o.val ∧ o.val < 2048 + 1024) := by omega
  have h0 : 0 ≤ o.val ∧ o.val < 0 + 1024 := by omega
  show (if h : 2048 ≤ o.val ∧ o.val < 2048 + 1024 then _ else _) = _
  rw [dif_neg h2]
  show (if h : 0 ≤ o.val ∧ o.val < 0 + 1024 then _ else _) = _
  rw [dif_pos h0]
  rfl

/-- Rows 1024 … 2047 (the key band): `W`. -/
theorem effWeight_key (o : Fin 3072) (k : Fin 1024) (h1 : 1024 ≤ o.val) (h2 : o.val < 2048) :
    effWeight W Aq Bq Av Bv (ix2 o k) = W (ix2 o k) := by
  unfold effWeight addRows
  have h2' : ¬(2048 ≤ o.val ∧ o.val < 2048 + 1024) := by omega
  have h0 : ¬(0 ≤ o.val ∧ o.val < 0 + 1024) := by omega
  show (if h : 2048 ≤ o.val ∧ o.val < 2048 + 1024 then _ else _) = _
  rw [dif_neg h2']
  show (if h : 0 ≤ o.val ∧ o.val < 0 + 1024 then _ else _) = _
  rw [dif_neg h0]

/-- Rows 2048 … 3071 (the value band): `W + s · (B_v A_v)`. -/
theorem effWeight_value (o : Fin 3072) (k : Fin 1024) (h : 2048 ≤ o.val) :
    effWeight W Aq Bq Av Bv (ix2 o k)
      = W (ix2 o k) + scale * ∑ r : Fin 16, Bv (ix2 ⟨o.val - 2048, by have := o.isLt; omega⟩ r) * Av (ix2 r k) := by
  unfold effWeight addRows
  have h2 : 2048 ≤ o.val ∧ o.val < 2048 + 1024 := by have := o.isLt; omega
  have h0 : ¬(0 ≤ o.val ∧ o.val < 0 + 1024) := by omega
  show (if h : 2048 ≤ o.val ∧ o.val < 2048 + 1024 then _ else _) = _
  rw [dif_pos h2]
  show (if h : 0 ≤ o.val ∧ o.val < 0 + 1024 then _ else _) + _ = _
  rw [dif_neg h0]
  rfl

end Cert.QkvSpec

end
-- ==== Proof.Finite.lean ====
/-
  The precondition read back: every entry of every argument array is a real number.

  The precondition is the conjunction, over the seven arrays, of "every entry's absolute value is below +∞". On the
  extended reals `|a| < +∞` excludes exactly the two infinities, so each array's entries are reals.
-/
import proofs.«157013_j66872640799074_2_alg».proof.Proof.Gen.Pre_finite_inputs
import proofs.«157013_j66872640799074_2_alg».proof.Proof.Spec
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Decode

open Idealize.ShloMosaic Idealize.ShloMosaic.ValueIdx Cert.Pre_finite_inputs Cert.QkvSpec

instance : Subsingleton S_.Idx := ⟨fun a b => funext fun d => d.elim0⟩

/-- The pattern the precondition compares against denotes +∞. -/
theorem inf_pattern : Ideal.ofBits .f32 0x7F800000#32 = ⊤ := by simp [Ideal.ofBits, Ideal.ieee]

/-- An extended real whose absolute value is below +∞ is a real. -/
theorem real_of_abs_lt_top (a : EReal) (h : max a (-a) < ⊤) : ∃ v : ℝ, a = v := by
  induction a using EReal.rec with
  | bot => simp at h
  | top => simp at h
  | coe r => exact ⟨r, rfl⟩

/-- One conjunct of the precondition: the array's entries are reals. -/
theorem finite_of_all {S : Shape} (x : FVec Ideal S .f32) (hb : S_.BroadcastsInDim S (![] : Fin 0 → Fin S.rank))
    {axes : List (Fin S.rank)} (hr : S.ReducesTo axes S_) (hS : 0 < S_.numel)
    (h : Host.reduce IntOp.andi
        (cmpf .olt (Host.absf x) (broadcastInDim S ![] hb (constant (F := Ideal) S_ .f32 0x7F800000#32)))
        (constantI S_ 1 1#1) hr hS ix0 = 1#1) :
    AllFinite x := by
  intro i
  have hi := Host.reduce_andi_all _ _ hr hS ix0 h i
  rw [cmpf_apply, broadcastInDim_apply _ hb _ i ix0 (fun a => a.elim0)] at hi
  change BitVec.ofBool (decide (max (x i) (-(x i)) < Ideal.ofBits .f32 0x7F800000#32)) = 1#1 at hi
  rw [inf_pattern] at hi
  refine real_of_abs_lt_top (x i) ?_
  by_contra hn
  rw [decide_eq_false hn] at hi
  exact absurd hi (by decide)

/-- The whole precondition: all seven arrays hold reals only. -/
theorem all_finite (x0 : FVec Ideal S32x1024x1024 .f32) (x1 : FVec Ideal S3072x1024 .f32) (x2 : FVec Ideal S3072 .f32)
    (x3 : FVec Ideal S16x1024 .f32) (x4 : FVec Ideal S1024x16 .f32) (x5 : FVec Ideal S16x1024 .f32)
    (x6 : FVec Ideal S1024x16 .f32) (h : fn (F := Ideal) x0 x1 x2 x3 x4 x5 x6 = fun _ => 1#1) :
    AllFinite x0 ∧ AllFinite x1 ∧ AllFinite x2 ∧ AllFinite x3 ∧ AllFinite x4 ∧ AllFinite x5 ∧ AllFinite x6 := by
  have h0 := congrFun h ix0
  dsimp only [fn, fn_part1] at h0
  obtain ⟨h5, r6⟩ := IntOp.andi_eq_one.1 h0
  obtain ⟨h4, r5⟩ := IntOp.andi_eq_one.1 h5
  obtain ⟨h3, r4⟩ := IntOp.andi_eq_one.1 h4
  obtain ⟨h2, r3⟩ := IntOp.andi_eq_one.1 h3
  obtain ⟨h1, r2⟩ := IntOp.andi_eq_one.1 h2
  obtain ⟨r0, r1⟩ := IntOp.andi_eq_one.1 h1
  exact ⟨finite_of_all x0 _ _ _ r0, finite_of_all x1 _ _ _ r1, finite_of_all x2 _ _ _ r2, finite_of_all x3 _ _ _ r3,
    finite_of_all x4 _ _ _ r4, finite_of_all x5 _ _ _ r5, finite_of_all x6 _ _ _ r6⟩

end Cert.Pre_finite_inputs.Decode

end
-- ==== Proof.LibScatter.lean ====
/-
  A host scatter read at one index.

  `Host.scatter d f x idx upd` is the left fold, over the update indices in row-major order, of the step
  "replace the element at the update's landing index by `f` of it and the update". Read at one operand
  index `i` the fold only sees the updates that land on `i`; when at most one does, the result there is
  `f (x i) (upd j)` for that one update `j`, or `x i` when none lands. Where an update lands
  (`ScatterDims.resultIdx?`) is, coordinate by coordinate, its start plus its window coordinate.
-/
import Idealize.ShloMosaic.PureOps

namespace Idealize.ShloMosaic

/-! ## A fold of pointwise overwrites, read at one index -/

section Fold

variable {ι κ α : Type} (g : ι → Option κ) (f : α → α → α) (v : ι → α)
  (step : (κ → α) → ι → (κ → α)) (i : κ)

/-- A fold of steps none of which touches `i` leaves the value at `i`. -/
theorem foldl_overwrite_miss (hmiss : ∀ r n, g n ≠ some i → step r n i = r i) :
    ∀ (l : List ι) (r : κ → α), (∀ n ∈ l, g n ≠ some i) → l.foldl step r i = r i
  | [], _, _ => rfl
  | a :: l, r, h => by
    rw [List.foldl_cons, foldl_overwrite_miss hmiss l (step r a) fun n hn => h n (List.mem_cons_of_mem _ hn)]
    exact hmiss r a (h a List.mem_cons_self)

/-- A fold over a list without repetitions in which exactly one step, `n`, touches `i`: the value at `i`
    is that step's. -/
theorem foldl_overwrite_hit (hmiss : ∀ r n, g n ≠ some i → step r n i = r i)
    (hhit : ∀ r n, g n = some i → step r n i = f (r i) (v n)) (n : ι) (hn : g n = some i) :
    ∀ (l : List ι) (r : κ → α), l.Nodup → n ∈ l → (∀ n' ∈ l, g n' = some i → n' = n) →
      l.foldl step r i = f (r i) (v n)
  | [], _, _, hmem, _ => absurd hmem List.not_mem_nil
  | a :: l, r, hnd, hmem, huniq => by
    rw [List.foldl_cons]
    by_cases ha : a = n
    · subst ha
      have hnot : a ∉ l := (List.nodup_cons.mp hnd).1
      rw [foldl_overwrite_miss g step i hmiss l (step r a) fun n' hn' hg =>
        hnot (huniq n' (List.mem_cons_of_mem _ hn') hg ▸ hn')]
      exact hhit r a hn
    · have hga : g a ≠ some i := fun hg => ha (huniq a List.mem_cons_self hg)
      have hmem' : n ∈ l := (List.mem_cons.mp hmem).resolve_left fun e => ha e.symm
      rw [foldl_overwrite_hit hmiss hhit n hn l (step r a) (List.nodup_cons.mp hnd).2 hmem'
        fun n' hn' => huniq n' (List.mem_cons_of_mem _ hn'), hmiss r a hga]

end Fold

/-! ## The host scatter at an index -/

namespace Host

variable {s si u : Shape} {α : Type} {w : Nat}

/-- The scatter's step leaves an index the update does not land on. -/
private theorem scatter_step_miss (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  generalize d.resultIdx? (u.rowMajor.symm n) idx = o at h
  cases o with
  | none => rfl
  | some k =>
    have hne : i ≠ k := fun e => h (congrArg some e.symm)
    dsimp only
    exact if_neg hne

/-- The scatter's step at the index the update lands on. -/
private theorem scatter_step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then f (r k) (upd (u.rowMajor.symm n)) else r i'
      | none => r) i = f (r i) (upd (u.rowMajor.symm n)) := by
  generalize d.resultIdx? (u.rowMajor.symm n) idx = o at h
  cases o with
  | none => exact absurd h (by simp)
  | some k =>
    have hk : k = i := Option.some.inj h
    subst hk
    dsimp only
    exact if_pos rfl

/-- No update lands on `i`: the scatter leaves the operand's element. -/
theorem scatter_apply_of_miss (d : ScatterDims s si u) (f : α → α → α) (x : s.Idx → α) (idx : IVec si w) (upd : u.Idx → α)
    (i : s.Idx) (hmiss : ∀ j, d.resultIdx? j idx ≠ some i) : Host.scatter d f x idx upd i = x i := by
  unfold Host.scatter
  exact foldl_overwrite_miss (fun n => d.resultIdx? (u.rowMajor.symm n) idx) _ i
    (fun r n h => scatter_step_miss d f idx upd i r n h) _ x fun n _ => hmiss _

/-- Exactly one update, `j`, lands on `i`: the scatter's element there is `f` of the operand's and that update. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  have hn : d.resultIdx? (u.rowMajor.symm (u.rowMajor j)) idx = some i := by rw [Equiv.symm_apply_apply]; exact hj
  have h := foldl_overwrite_hit (fun n => d.resultIdx? (u.rowMajor.symm n) idx) f (fun n => upd (u.rowMajor.symm n)) _ i
    (fun r n h => scatter_step_miss d f idx upd i r n h) (fun r n h => scatter_step_hit d f idx upd i r n h)
    (u.rowMajor j) hn (List.finRange u.numel) x (List.nodup_finRange _) (List.mem_finRange _)
    (fun n' _ hg => (Equiv.symm_apply_eq _).mp (huniq _ hg))
  exact h.trans (by rw [Equiv.symm_apply_apply])

end Host

/-! ## Where an update lands -/

namespace ScatterDims

variable {s si u : Shape} (d : ScatterDims s si u) {w : Nat}

/-- Update `j` lands on `i` exactly when, on every operand axis, `i`'s coordinate is the start plus the
    window coordinate. -/
theorem resultIdx?_eq_some_iff (j : u.Idx) (idx : IVec si w) (i : s.Idx) :
    d.resultIdx? j idx = some i ↔ ∀ a, ((i a).val : Int) = d.start j idx a + d.window j a := by
  unfold resultIdx?
  constructor
  · intro h a
    split at h
    · rename_i hb
      have e := congrFun (Option.some.inj h) a
      have e' : (d.start j idx a + ↑(d.window j a)).toNat = (i a).val := congrArg Fin.val e
      have := (hb a).1
      omega
    · exact absurd h (by simp)
  · intro h
    have hb : ∀ a, 0 ≤ d.start j idx a + ↑(d.window j a) ∧ d.start j idx a + ↑(d.window j a) < ↑(s.size a) := fun a => by
      have := h a; have := (i a).isLt; omega
    rw [dif_pos hb]
    refine congrArg some (funext fun a => Fin.ext ?_)
    show (d.start j idx a + ↑(d.window j a)).toNat = (i a).val
    have := h a; omega

end ScatterDims

end Idealize.ShloMosaic
-- ==== Proof.RowBands.lean ====
/-
  The two row-band updates of the weight matrix, read at an entry.

  The program adds a 1024 × 1024 matrix `U` onto rows `c … c + 1023` of a 3072 × 1024 matrix `X` by a scatter with ONE
  start index `(c, ·)` whose window is the whole of `U`: update `(p, k)` lands on `(c + p, k)`, so distinct updates land
  on distinct entries, and entry `(o, k)` receives `U (o - c, k)` when `c ≤ o < c + 1024` and nothing otherwise.
-/
import proofs.«157013_j66872640799074_2_alg».proof.Proof.Gen.KernelIdeal
import proofs.«157013_j66872640799074_2_alg».proof.Proof.LibScatter
import Idealize.ShloMosaic.Lib.ValueIdx
import Idealize.ShloMosaic.PureOps.Ideal

noncomputable section

namespace Cert.KernelIdeal.RowBands

open Idealize.ShloMosaic Idealize.ShloMosaic.ValueIdx Cert.KernelIdeal

/-- The scatter's dimension numbers: both update axes are window axes, the start index names operand axis 0. -/
abbrev bandDims : ScatterDims S3072x1024 S1 S1024x1024 := scatter_S3072x1024_S1_S1024x1024_01_n_0_0

theorem start_row (j : S1024x1024.Idx) (idx : IVec S1 32) (c : BitVec 32) (hidx : ∀ k, idx k = c) :
    bandDims.start j idx 0 = c.toInt := by
  unfold ScatterDims.start
  rw [dif_pos (show (0 : Fin S3072x1024.rank) ∈ bandDims.scatterDimsToOperandDims by decide), hidx]

theorem start_col (j : S1024x1024.Idx) (idx : IVec S1 32) : bandDims.start j idx 1 = 0 := by
  unfold ScatterDims.start
  rw [dif_neg (show ¬(1 : Fin S3072x1024.rank) ∈ bandDims.scatterDimsToOperandDims by decide)]

theorem window_row (j : S1024x1024.Idx) : bandDims.window j 0 = (j 0).val := by
  unfold ScatterDims.window
  rw [dif_pos (show (0 : Fin S3072x1024.rank) ∈ bandDims.sKept by decide)]
  rfl

theorem window_col (j : S1024x1024.Idx) : bandDims.window j 1 = (j 1).val := by
  unfold ScatterDims.window
  rw [dif_pos (show (1 : Fin S3072x1024.rank) ∈ bandDims.sKept by decide)]
  rfl

/-- Update `(p, k)` lands on `(c + p, k)`. -/
theorem lands_iff (j : S1024x1024.Idx) (idx : IVec S1 32) (c : BitVec 32) (cn : Nat) (hc : c.toInt = cn)
    (hidx : ∀ k, idx k = c) (i : S3072x1024.Idx) :
    bandDims.resultIdx? j idx = some i ↔ (i 0).val = cn + (j 0).val ∧ (i 1).val = (j 1).val := by
  rw [ScatterDims.resultIdx?_eq_some_iff]
  constructor
  · intro h
    have h0 := h 0
    have h1 := h 1
    rw [start_row j idx c hidx, window_row, hc] at h0
    rw [start_col, window_col] at h1
    omega
  · rintro ⟨h0, h1⟩ a
    match a with
    | ⟨0, _⟩ =>
      show ((i 0).val : Int) = bandDims.start j idx 0 + bandDims.window j 0
      rw [start_row j idx c hidx, window_row, hc]; omega
    | ⟨1, _⟩ =>
      show ((i 1).val : Int) = bandDims.start j idx 1 + bandDims.window j 1
      rw [start_col, window_col]; omega

/-- The matrix after one band update, at entry `(o, k)`. -/
theorem band_add_apply (X : FVec Ideal S3072x1024 .f32) (idx : IVec S1 32) (c : BitVec 32) (cn : Nat) (hc : c.toInt = cn)
    (hidx : ∀ k, idx k = c) (U : FVec Ideal S1024x1024 .f32) (o : Fin 3072) (k : Fin 1024) :
    Host.scatter bandDims FloatOps.addf X idx U (ix2 o k)
      = if h : cn ≤ o.val ∧ o.val < cn + 1024 then X (ix2 o k) + U (ix2 ⟨o.val - cn, by omega⟩ k) else X (ix2 o k) := by
  split
  · rename_i h
    refine Host.scatter_apply_of_hit bandDims FloatOps.addf X idx U (ix2 o k) (ix2 ⟨o.val - cn, by omega⟩ k) ?_ ?_
    · rw [lands_iff _ idx c cn hc hidx]
      exact ⟨by show o.val = cn + (o.val - cn); omega, rfl⟩
    · intro j' hj'
      rw [lands_iff _ idx c cn hc hidx] at hj'
      rw [eq_ix2 j']
      have e0 : o.val = cn + (j' 0).val := hj'.1
      have e1 : k.val = (j' 1).val := hj'.2
      congr 1
      · exact Fin.ext (by show (j' 0).val = o.val - cn; omega)
      · exact Fin.ext e1.symm
  · rename_i h
    refine Host.scatter_apply_of_miss bandDims FloatOps.addf X idx U (ix2 o k) fun j hj => h ?_
    rw [lands_iff _ idx c cn hc hidx] at hj
    have e0 : o.val = cn + (j 0).val := hj.1
    have := (j 0).isLt
    have hlt : (j 0).val < 1024 := this
    omega

end Cert.KernelIdeal.RowBands

end
-- ==== Proof.Staged.lean ====
/-
  What the three arrays the kernel's region stages hold, entry by entry, in terms of the program's arguments.

  Before the region the program flattens the activations `x` to 32768 rows (row `ρ` is batch `ρ / 1024`, token
  `ρ % 1024`), builds the effective weight — `W` with the two scaled rank-16 products added onto the query and value row
  bands — and hands it over TRANSPOSED (feature, output) and narrowed to bf16 (a change of format, the identity on
  the extended reals), and views the bias as one row.
-/
import proofs.«157013_j66872640799074_2_alg».proof.Proof.Gen.KernelIdeal.Frame
import proofs.«157013_j66872640799074_2_alg».proof.Proof.RowBands
import proofs.«157013_j66872640799074_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Staged

open Idealize.ShloMosaic Idealize.ShloMosaic.TcCoe Idealize.ShloMosaic.ValueIdx Idealize.SL.Sem
open Cert.KernelIdeal Cert.KernelIdeal.Gen Idealize.ShloMosaic.StableHlo

/-! ## The rank-16 product on the host -/

/-- The host's product of a 1024 × 16 and a 16 × 1024 matrix: the contraction is over the 16. -/
abbrev rankDims : DotDims S1024x16 S16x1024 S1024x1024 := dot_S1024x16_S16x1024_S1024x1024_1_0_0_1_n_n

theorem lhs_row (i : S1024x1024.Idx) (q : rankDims.contr.Idx) : (rankDims.lhsIdx i q 0).val = (i 0).val := by
  unfold DotDims.lhsIdx
  rw [dif_neg (show ¬(0 : Fin S1024x16.rank) ∈ rankDims.lhsBatch by decide),
    dif_pos (show (0 : Fin S1024x16.rank) ∈ rankDims.lhsNonContracting by decide)]
  rfl
theorem lhs_contr (i : S1024x1024.Idx) (q : rankDims.contr.Idx) : (rankDims.lhsIdx i q 1).val = (q ⟨0, by decide⟩).val :=
  rankDims.lhsIdx_val_of_single rfl i q
theorem rhs_contr (i : S1024x1024.Idx) (q : rankDims.contr.Idx) : (rankDims.rhsIdx i q 0).val = (q ⟨0, by decide⟩).val :=
  rankDims.rhsIdx_val_of_single rfl i q
theorem rhs_col (i : S1024x1024.Idx) (q : rankDims.contr.Idx) : (rankDims.rhsIdx i q 1).val = (i 1).val := by
  unfold DotDims.rhsIdx
  rw [dif_neg (show ¬(1 : Fin S16x1024.rank) ∈ rankDims.rhsBatch by decide),
    dif_pos (show (1 : Fin S16x1024.rank) ∈ rankDims.rhsNonContracting by decide)]
  rfl

/-- Entry `(p, k)` of `B A` is `Σ_r B (p, r) · A (r, k)`. -/
theorem rank_product_apply (B : FVec Ideal S1024x16 .f32) (A : FVec Ideal S16x1024 .f32) (i : S1024x1024.Idx) :
    Host.dotGeneral rankDims (some .fp32) B A i = ∑ r : Fin 16, B (ix2 (i 0) r) * A (ix2 r (i 1)) := by
  simp only [Host.dotGeneral]
  rw [Ideal.dotGeneral_apply, ← Equiv.sum_comp (contrEquiv1 rankDims 16 rfl rfl).symm]
  refine Finset.sum_congr rfl fun r _ => ?_
  have hr := contrEquiv1_symm_val rankDims 16 rfl rfl r
  have el : rankDims.lhsIdx i ((contrEquiv1 rankDims 16 rfl rfl).symm r) = ix2 (i 0) r := funext fun a => Fin.ext (by
    match a with
    | ⟨0, _⟩ => exact lhs_row _ _
    | ⟨1, _⟩ => exact (lhs_contr _ _).trans hr)
  have er : rankDims.rhsIdx i ((contrEquiv1 rankDims 16 rfl rfl).symm r) = ix2 r (i 1) := funext fun a => Fin.ext (by
    match a with
    | ⟨0, _⟩ => exact (rhs_contr _ _).trans hr
    | ⟨1, _⟩ => exact rhs_col _ _)
  rw [el, er]
  rfl

/-- The scaled product the program forms is the specification's. -/
theorem scaled_rank_product (B : FVec Ideal S1024x16 .f32) (A : FVec Ideal S16x1024 .f32) :
    mulf (broadcastInDim S1024x1024 ![] bcast_S_S1024x1024 (constant (F := Ideal) S_ .f32 0x3F800000#32))
        (Host.dotGeneral rankDims (some .fp32) B A)
      = Cert.QkvSpec.lowRank B A := by
  funext i
  rw [mulf_apply, rank_product_apply,
    broadcastInDim_apply _ bcast_S_S1024x1024 (constant (F := Ideal) S_ .f32 0x3F800000#32) i ix0 (fun a => a.elim0)]
  rfl

/-- A band update by the scatter is the specification's. -/
theorem band_update (X : FVec Ideal S3072x1024 .f32) (c : BitVec 32) (cn : Nat) (hc : c.toInt = cn)
    (U : FVec Ideal S1024x1024 .f32) :
    Host.scatter scatter_S3072x1024_S1_S1024x1024_01_n_0_0 FloatOps.addf X
        (broadcastInDim S1 ![] bcast_S_S1 (constantI S_ 32 c)) U
      = Cert.QkvSpec.addRows cn X U := by
  funext i
  rw [eq_ix2 i]
  exact RowBands.band_add_apply X _ c cn hc (fun _ => rfl) U (i 0) (i 1)

/-! ## The staged arrays -/

variable (m : (ℓ : Loc nD τ sig) → Buf (Elt Ideal) ℓ)

/-- The seven argument arrays as launched, on core `c`, each at its own type. -/
abbrev argX (c : Dev nD) : FVec Ideal S32x1024x1024 .f32 := m ((c : Thread nD τ).loc main_arg0)
abbrev argW (c : Dev nD) : FVec Ideal S3072x1024 .f32 := m ((c : Thread nD τ).loc main_arg1)
abbrev argBias (c : Dev nD) : FVec Ideal S3072 .f32 := m ((c : Thread nD τ).loc main_arg2)
abbrev argAq (c : Dev nD) : FVec Ideal S16x1024 .f32 := m ((c : Thread nD τ).loc main_arg3)
abbrev argBq (c : Dev nD) : FVec Ideal S1024x16 .f32 := m ((c : Thread nD τ).loc main_arg4)
abbrev argAv (c : Dev nD) : FVec Ideal S16x1024 .f32 := m ((c : Thread nD τ).loc main_arg5)
abbrev argBv (c : Dev nD) : FVec Ideal S1024x16 .f32 := m ((c : Thread nD τ).loc main_arg6)

/-- The weight window's array: entry `(k, o)` is the effective weight at `(o, k)`. -/
theorem weight_apply (c : Dev nD) (k : Fin 1024) (o : Fin 3072) :
    (V m c main_v12 : S1024x3072.Idx → EReal) (ix2 k o)
      = Cert.QkvSpec.effWeight (argW m c) (argAq m c) (argBq m c) (argAv m c) (argBv m c) (ix2 o k) := by
  have e : (V m c main_v12 : S1024x3072.Idx → EReal)
      = truncf .bf16 (transpose S1024x3072 [1, 0]
          (Host.scatter scatter_S3072x1024_S1_S1024x1024_01_n_0_0 FloatOps.addf
            (Host.scatter scatter_S3072x1024_S1_S1024x1024_01_n_0_0 FloatOps.addf (argW m c)
              (broadcastInDim S1 ![] bcast_S_S1 (constantI S_ 32 0#32))
              (mulf (broadcastInDim S1024x1024 ![] bcast_S_S1024x1024 (constant (F := Ideal) S_ .f32 0x3F800000#32))
                (Host.dotGeneral rankDims (some .fp32) (argBq m c) (argAq m c))))
            (broadcastInDim S1 ![] bcast_S_S1 (constantI S_ 32 2048#32))
            (mulf (broadcastInDim S1024x1024 ![] bcast_S_S1024x1024 (constant (F := Ideal) S_ .f32 0x3F800000#32))
              (Host.dotGeneral rankDims (some .fp32) (argBv m c) (argAv m c))))
          transposes_S3072x1024_S1024x3072_1_0) bitsLt_bf16_f32 := by
    show StableHlo.after hostOps0 (fun b => m (c, b)) (Proc.devRef .tc main_v12) = _
    after_results <;> rfl
  rw [e, truncf_apply, transpose_ix2_apply, scaled_rank_product, scaled_rank_product,
    band_update _ 0#32 0 rfl, band_update _ 2048#32 2048 rfl]
  rfl

/-- The activation window's array: row `ρ` is batch `ρ / 1024`, token `ρ % 1024`. -/
theorem act_apply (c : Dev nD) (ρ : Fin 32768) (k : Fin 1024) :
    (V m c main_v10 : S32768x1024.Idx → EReal) (ix2 ρ k)
      = argX m c (ix3 ⟨ρ.val / 1024, by have := ρ.isLt; omega⟩ ⟨ρ.val % 1024, Nat.mod_lt _ (by decide)⟩ k) := by
  have e : (V m c main_v10 : S32768x1024.Idx → EReal)
      = shapeCast S32768x1024 (argX m c) shapeCasts_S32x1024x1024_S32768x1024 := by
    show StableHlo.after hostOps0 (fun b => m (c, b)) (Proc.devRef .tc main_v10) = _
    after_results <;> rfl
  rw [e]
  refine shapeCast_apply _ _ _ _ ?_
  show (S32x1024x1024.rowMajor _).val = (S32768x1024.rowMajor _).val
  rw [Shape.rowMajor_val_three, Shape.rowMajor_val_two]
  show (ρ.val / 1024 * 1024 + ρ.val % 1024) * 1024 + k.val = ρ.val * 1024 + k.val
  have := Nat.div_add_mod ρ.val 1024
  omega

/-- The bias window's array: its one row is the bias. -/
theorem bias_apply (c : Dev nD) (u : Fin 1) (o : Fin 3072) :
    (V m c main_v13 : S1x3072.Idx → EReal) (ix2 u o) = argBias m c (ix1 o) := by
  have e : (V m c main_v13 : S1x3072.Idx → EReal)
      = shapeCast S1x3072 (argBias m c) shapeCasts_S3072_S1x3072 := by
    show StableHlo.after hostOps0 (fun b => m (c, b)) (Proc.devRef .tc main_v13) = _
    after_results <;> rfl
  rw [e]
  exact shapeCast_a_1a_apply _ _ u o

end Cert.KernelIdeal.Staged

end
-- ==== Proof.Block.lean ====
/-
  What the kernel body computes for one block of 512 rows, entry by entry.

  The body multiplies its 512 × 1024 block of activations (narrowed to bf16: a change of format, the identity on the
  extended reals) by the whole 1024 × 3072 weight it is handed, into a zero accumulator, and adds the bias row to every
  row: entry `(p, q)` is `Σ_k x (p, k) · w (k, q) + b (0, q)`.
-/
import proofs.«157013_j66872640799074_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen

/-- The body's product of a 512 × 1024 and a 1024 × 3072 matrix: the contraction is over the 1024. -/
abbrev blockDims : DotDims S512x1024 S1024x3072 S512x3072 := dot_S512x1024_S1024x3072_S512x3072_1_0_0_1_n_n

theorem lhs_row (i : S512x3072.Idx) (q : blockDims.contr.Idx) : (blockDims.lhsIdx i q 0).val = (i 0).val := by
  unfold DotDims.lhsIdx
  rw [dif_neg (show ¬(0 : Fin S512x1024.rank) ∈ blockDims.lhsBatch by decide),
    dif_pos (show (0 : Fin S512x1024.rank) ∈ blockDims.lhsNonContracting by decide)]
  rfl
theorem lhs_contr (i : S512x3072.Idx) (q : blockDims.contr.Idx) : (blockDims.lhsIdx i q 1).val = (q ⟨0, by decide⟩).val :=
  blockDims.lhsIdx_val_of_single rfl i q
theorem rhs_contr (i : S512x3072.Idx) (q : blockDims.contr.Idx) : (blockDims.rhsIdx i q 0).val = (q ⟨0, by decide⟩).val :=
  blockDims.rhsIdx_val_of_single rfl i q
theorem rhs_col (i : S512x3072.Idx) (q : blockDims.contr.Idx) : (blockDims.rhsIdx i q 1).val = (i 1).val := by
  unfold DotDims.rhsIdx
  rw [dif_neg (show ¬(1 : Fin S1024x3072.rank) ∈ blockDims.rhsBatch by decide),
    dif_pos (show (1 : Fin S1024x3072.rank) ∈ blockDims.rhsNonContracting by decide)]
  rfl

/-- The product into a zero accumulator, at entry `(p, q)`. -/
theorem product_apply (x : FVec Ideal S512x1024 .bf16) (w : FVec Ideal S1024x3072 .bf16) (p : Fin 512) (q : Fin 3072) :
    matmul blockDims none x w (constant S512x3072 .f32 0x00000000#32) (ix2 p q)
      = ∑ k : Fin 1024, x (ix2 p k) * w (ix2 k q) := by
  simp only [matmul]
  rw [Ideal.matmul_constant_zero_apply, ← Equiv.sum_comp (contrEquiv1 blockDims 1024 rfl rfl).symm]
  refine Finset.sum_congr rfl fun k _ => ?_
  have hk := contrEquiv1_symm_val blockDims 1024 rfl rfl k
  have el : blockDims.lhsIdx (ix2 p q) ((contrEquiv1 blockDims 1024 rfl rfl).symm k) = ix2 p k := funext fun a => Fin.ext (by
    match a with
    | ⟨0, _⟩ => exact lhs_row _ _
    | ⟨1, _⟩ => exact (lhs_contr _ _).trans hk)
  have er : blockDims.rhsIdx (ix2 p q) ((contrEquiv1 blockDims 1024 rfl rfl).symm k) = ix2 k q := funext fun a => Fin.ext (by
    match a with
    | ⟨0, _⟩ => exact (rhs_contr _ _).trans hk
    | ⟨1, _⟩ => exact rhs_col _ _)
  rw [el, er]

/-- The body's stored value at entry `(p, q)` of the block. -/
theorem payload_apply (x : Vec Ideal S512x1024 .f32) (w : Vec Ideal S1024x3072 .bf16) (b : Vec Ideal S1x3072 .f32)
    (p : Fin 512) (q : Fin 3072) :
    k0_pay1 x w b (ix2 p q) = (∑ k : Fin 1024, x (ix2 p k) * w (ix2 k q)) + b (ix2 (0 : Fin 1) q) := by
  unfold k0_pay1
  rw [addf_apply, broadcastTo_1b_ab_apply, shapeCast_self, shapeCast_self, shapeCast_self, product_apply]
  rfl

end Cert.KernelIdeal.Block

end
-- ==== Proof.Blocks.lean ====
/-
  Where the windows' blocks sit on the grid of 64 points.

  Grid point `t` stages rows `512 t … 512 t + 511` of the flattened activations and writes back the same rows of the
  32768 × 3072 result; the weight and the bias row are one whole block each, the same at every point. So an entry of a
  block is an entry of the staged array at the block's offset, and row `ρ` of the result lies in the block of point
  `ρ / 512`: the 64 blocks tile the array.
-/
import proofs.«157013_j66872640799074_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Where each window's block sits at point `t`: the activations and the result at row block `t`, the weight and the bias
    at their one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := by
  have h : t.val < grid0.N := t.isLt
  rw [N_0] at h
  exact h

/-- Entry `(p, k)` of the activation block at point `t` is row `512 t + p` of the flattened activations. -/
theorem act_block (c : Dev nD) (t : Fin cfg0.N) (p : Fin 512) (k : Fin 1024) :
    iblk m c 0 t (ix2 p k)
      = (V m c main_v10 : S32768x1024.Idx → EReal) (ix2 ⟨t.val * 512 + p.val, by have := point_lt t; omega⟩ k) := by
  obtain ⟨e0, e1, -⟩ := block_positions t
  show (V m c main_v10 : S32768x1024.Idx → EReal) (((cfg0.win 0).blk t).view.emb (ix2 p k)) = _
  refine congrArg (V m c main_v10 : S32768x1024.Idx → EReal) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The weight window's one block is its whole array: read through the block, any contents `A` of the array are `A`. -/
theorem weight_read (c : Dev nD) (t : Fin cfg0.N) (A : Buf (Elt Ideal) ((c : Thread nD τ).loc main_v12)) (k : Fin 1024)
    (q : Fin 3072) :
    ((cfg0.win 1).blk t).view.read (Elt Ideal) A (ix2 k q) = (A : S1024x3072.Idx → EReal) (ix2 k q) := by
  obtain ⟨-, -, e2, e3, -⟩ := block_positions t
  show (A : S1024x3072.Idx → EReal) (((cfg0.win 1).blk t).view.emb (ix2 k q)) = _
  refine congrArg (A : S1024x3072.Idx → EReal) (funext fun a => Fin.ext ?_)
  match a with
  | ⟨0, _⟩ => show win0_1.index t (0 : Fin 2) * 1024 + 1 * k.val = k.val; omega
  | ⟨1, _⟩ => show win0_1.index t (1 : Fin 2) * 3072 + 1 * q.val = q.val; omega

/-- The weight block at every point is the whole staged weight. -/
theorem weight_block (c : Dev nD) (t : Fin cfg0.N) (k : Fin 1024) (q : Fin 3072) :
    iblk m c 1 t (ix2 k q) = (V m c main_v12 : S1024x3072.Idx → EReal) (ix2 k q) := by
  unfold iblk
  exact weight_read c t (V m c (Pipeline.arrRef spec0 1)) k q

/-- The bias block at every point is the whole staged bias row. -/
theorem bias_block (c : Dev nD) (t : Fin cfg0.N) (u : Fin 1) (q : Fin 3072) :
    iblk m c 2 t (ix2 u q) = (V m c main_v13 : S1x3072.Idx → EReal) (ix2 u q) := by
  obtain ⟨-, -, -, -, e4, e5, -⟩ := block_positions t
  show (V m c main_v13 : S1x3072.Idx → EReal) (((cfg0.win 2).blk t).view.emb (ix2 u q)) = _
  refine congrArg (V m c main_v13 : S1x3072.Idx → EReal) (funext fun a => Fin.ext ?_)
  match a with
  | ⟨0, _⟩ => show win0_2.index t (0 : Fin 2) * 1 + 1 * u.val = u.val; omega
  | ⟨1, _⟩ => show win0_2.index t (1 : Fin 2) * 3072 + 1 * q.val = q.val; omega

/-- Entry `(p, q)` of the result block at point `t` is entry `(512 t + p, q)` of the array. -/
theorem out_block (t : Fin cfg0.N) (p : Fin 512) (q : Fin 3072) :
    ((cfg0.win 3).blk t).view.emb (ix2 p q) = ix2 ⟨t.val * 512 + p.val, by have := point_lt t; omega⟩ q := by
  obtain ⟨-, -, -, -, -, -, e6, e7⟩ := block_positions t
  refine funext fun a => Fin.ext ?_
  match a with
  | ⟨0, _⟩ => show win0_3.index t (0 : Fin 2) * 512 + 1 * p.val = t.val * 512 + p.val; omega
  | ⟨1, _⟩ => show win0_3.index t (1 : Fin 2) * 3072 + 1 * q.val = q.val; omega

/-- An entry of the array is in point `t`'s block iff each coordinate is in the block's range. -/
theorem mem_blk (t : Fin cfg0.N) (i : S32768x3072.Idx) :
    i ∈ ((cfg0.win 3).blk t).view.set
      ↔ ∀ a : Fin 2, win0_3.index t a * S512x3072.size a ≤ (i a).val
          ∧ (i a).val < win0_3.index t a * S512x3072.size a + S512x3072.size a := by
  show i ∈ ((View.whole main_v14).slice (win0_3.rect t)).set ↔ _
  rw [View.set_slice_whole, Rect.mem_set_unit]
  exact Iff.rfl

/-- Row `ρ` lies in block `ρ / 512`: the 64 blocks cover the array. -/
theorem cover (i : S32768x3072.Idx) :
    ∃ t : Fin cfg0.N, (cfg0.win 3).flush t = true ∧ i ∈ ((cfg0.win 3).blk t).view.set := by
  have hi0 : (i 0).val < 32768 := (i 0).isLt
  have hi1 : (i 1).val < 3072 := (i 1).isLt
  have hN : (i 0).val / 512 < cfg0.N := by show _ < grid0.N; rw [N_0]; omega
  refine ⟨⟨(i 0).val / 512, hN⟩, flush0_3 _, ?_⟩
  obtain ⟨-, -, -, -, -, -, e6, e7⟩ := block_positions ⟨(i 0).val / 512, hN⟩
  rw [mem_blk]
  intro a
  match a with
  | ⟨0, _⟩ =>
    show win0_3.index ⟨(i 0).val / 512, hN⟩ (0 : Fin 2) * 512 ≤ (i 0).val
      ∧ (i 0).val < win0_3.index ⟨(i 0).val / 512, hN⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, hN⟩ (1 : Fin 2) * 3072 ≤ (i 1).val
      ∧ (i 1).val < win0_3.index ⟨(i 0).val / 512, hN⟩ (1 : Fin 2) * 3072 + 3072
    rw [e7]; omega

end Cert.KernelIdeal.Blocks

end
-- ==== Proof.Result.lean ====
/-
  The kernel program's result array, as the specification of the seven arguments.

  Entry `(ρ, o)` of the 32768 × 3072 array the region leaves is `Σ_k x2d (ρ, k) · w (k, o) + b (0, o)` over the staged
  arrays, which is the specification at batch `ρ / 1024`, token `ρ % 1024`, output `o`. Each grid point writes its block
  of that array, the blocks tile it, and the program's last line views it as [32, 1024, 3072], which puts entry
  `(1024 β + n, o)` at `(β, n, o)`.
-/
import proofs.«157013_j66872640799074_2_alg».proof.Proof.Gen.KernelIdeal.Frame
import proofs.«157013_j66872640799074_2_alg».proof.Proof.Staged
import proofs.«157013_j66872640799074_2_alg».proof.Proof.Block
import proofs.«157013_j66872640799074_2_alg».proof.Proof.Blocks
import proofs.«157013_j66872640799074_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Staged Cert.KernelIdeal.Blocks Idealize.ShloMosaic.StableHlo
open Idealize.ShloMosaic.Pipeline (Dat)

variable (m : (ℓ : Loc nD τ sig) → Buf (Elt Ideal) ℓ) (ρ : Dev nD → PrngReg)

/-- The specification of this core's arguments. -/
abbrev spec (c : Dev nD) : S32x1024x3072.Idx → EReal :=
  Cert.QkvSpec.out (argX m c) (argW m c) (argBias m c) (argAq m c) (argBq m c) (argAv m c) (argBv m c)

/-- The array the region leaves: row `ρ` is batch `ρ / 1024`, token `ρ % 1024` of the specification. -/
def rows (c : Dev nD) : S32768x3072.Idx → EReal := fun i =>
  spec m c (ix3 ⟨(i 0).val / 1024, by have : (i 0).val < 32768 := (i 0).isLt; omega⟩
    ⟨(i 0).val % 1024, Nat.mod_lt _ (by decide)⟩ (i 1))

/-- A row of activations against a column of the (feature, output) weight, plus the bias of that column. -/
def rowDot (X : S32768x1024.Idx → EReal) (Wt : S1024x3072.Idx → EReal) (Bs : S1x3072.Idx → EReal) (r : Fin 32768)
    (q : Fin 3072) : EReal :=
  (∑ k : Fin 1024, X (ix2 r k) * Wt (ix2 k q)) + Bs (ix2 (0 : Fin 1) q)

/-- An entry of `rows` over the staged arrays. -/
theorem rows_apply (c : Dev nD) (r : Fin 32768) (q : Fin 3072) :
    rows m c (ix2 r q) = rowDot (V m c main_v10) (V m c main_v12) (V m c main_v13) r q := by
  unfold rowDot
  rw [bias_apply m c 0 q]
  refine Eq.symm (congrArg (· + argBias m c (ix1 q)) (Finset.sum_congr rfl fun k _ => ?_))
  rw [act_apply m c r k, weight_apply m c k q]

theorem zero_offsets : (![0, 0] : Fin 2 → Nat) = fun _ => 0 := funext fun a => by fin_cases a <;> rfl

/-- What point `t` writes back is block `t` of `rows`. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S1024x3072) zero_offsets,
    View.ld_unit_zero (S := S1x3072) zero_offsets]
  funext j
  obtain ⟨p, q, rfl⟩ : ∃ (p : Fin 512) (q : Fin 3072), j = ix2 p q := ⟨j 0, j 1, eq_ix2 j⟩
  show k0_pay1 (iblk m c 0 t) (iblk m c 1 t) (iblk m c 2 t) (ix2 p q) = rows m c (((cfg0.win 3).blk t).view.emb (ix2 p q))
  refine (Block.payload_apply (iblk m c 0 t) (iblk m c 1 t) (iblk m c 2 t) p q).trans ?_
  refine Eq.trans ?_ (congrArg (rows m c) (out_block t p q)).symm
  refine Eq.trans ?_ (rows_apply m c _ q).symm
  unfold rowDot
  exact congrArg₂ (· + ·)
    (Finset.sum_congr rfl fun k _ => congrArg₂ (· * ·) (act_block m c t p k) (weight_block m c t k q))
    (bias_block m c t 0 q)

/-- The array the region leaves. -/
theorem region_array (c : Dev nD) : (dats m 0 c).arrAt 3 cfg0.N = rows m c :=
  (dats m 0 c).arrAt_eq_of_cover 3 (rows m c) (fun t _ => flushed_eq m c t) cover

end Cert.KernelIdeal.Result

end
-- ==== Proof.Tail.lean ====
/-
  The program's last line, and its run.

  After the region the program views the 32768 × 3072 array as [32, 1024, 3072]: entry `(β, n, o)` of the result is entry
  `(1024 β + n, o)` of the array, whose batch is `β` and token `n` — the specification at `(β, n, o)`. The run of the
  whole program is then read off the generated frame run: the result array at the specification, the arguments as
  launched.
-/
import proofs.«157013_j66872640799074_2_alg».proof.Proof.Gen.KernelIdeal.Frame
import proofs.«157013_j66872640799074_2_alg».proof.Proof.Result
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Staged Idealize.ShloMosaic.StableHlo

variable (m : (ℓ : Loc nD τ sig) → Buf (Elt Ideal) ℓ) (ρ : Dev nD → PrngReg)

/-- The [32, 1024, 3072] view of `rows` is the specification. -/
theorem view_rows (c : Dev nD) :
    shapeCast S32x1024x3072 (rows m c) shapeCasts_S32768x3072_S32x1024x3072 = spec m c := by
  funext i
  obtain ⟨β, n, o, rfl⟩ : ∃ (β : Fin 32) (n : Fin 1024) (o : Fin 3072), i = ix3 β n o := ⟨i 0, i 1, i 2, eq_ix3 i⟩
  have hβ := β.isLt
  have hn := n.isLt
  rw [shapeCast_apply (rows m c) shapeCasts_S32768x3072_S32x1024x3072 (ix3 β n o)
    (ix2 ⟨β.val * 1024 + n.val, by omega⟩ o) (by
      rw [Shape.rowMajor_val_three, Shape.rowMajor_val_two]
      rfl)]
  unfold rows
  refine congrArg (spec m c) ?_
  refine funext fun a => Fin.ext ?_
  match a with
  | ⟨0, _⟩ => show (β.val * 1024 + n.val) / 1024 = β.val; omega
  | ⟨1, _⟩ => show (β.val * 1024 + n.val) % 1024 = n.val; omega
  | ⟨2, _⟩ => rfl

/-- The program's result buffer after the last line. -/
theorem result_eq (c : Dev nD) :
    Pipeline.afterTail₀ cfgs (dats m) 0 (V0 m) [hostOps1] c main_v15 = spec m c := by
  unfold Pipeline.afterTail₀
  show StableHlo.after hostOps1 _ (Proc.devRef .tc main_v15) = _
  after_results
  rw [(Pipeline.withArrays_arr spec0 launch0.win.arr_inj c _ _ 3).trans (region_array m c)]
  exact view_rows m c

/-- THE KERNEL PROGRAM'S RUN: every weakly fair execution terminates with the result buffer at the specification of the
    arguments as launched, and the arguments unchanged. -/
theorem run : θ_run defs (onTc (τ := τ) (main (F := Ideal))) ⟨m, fun _ => 0, ρ⟩ (fun r => ∀ c : Dev nD,
      r.2.mem ((c.tc : Thread nD τ).loc main_v15) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.ColBands.lean ====
/-
  The two column-band updates of the projected activations, read at an entry.

  The reference adds a 32 × 1024 × 1024 array `U` onto columns `c … c + 1023` (the last axis) of a 32 × 1024 × 3072
  array `X` by a scatter with ONE start index `(·, ·, c)` whose window is the whole of `U`: update `(b, n, h)` lands on
  `(b, n, c + h)`, so distinct updates land on distinct entries, and entry `(b, n, o)` receives `U (b, n, o - c)` when
  `c ≤ o < c + 1024` and nothing otherwise.
-/
import proofs.«157013_j66872640799074_2_alg».proof.Proof.Gen.ReferenceIdeal
import proofs.«157013_j66872640799074_2_alg».proof.Proof.LibScatter
import Idealize.ShloMosaic.Lib.ValueIdx
import Idealize.ShloMosaic.PureOps.Ideal

noncomputable section

namespace Cert.ReferenceIdeal.ColBands

open Idealize.ShloMosaic Idealize.ShloMosaic.ValueIdx Cert.ReferenceIdeal

/-- The scatter's dimension numbers: all three update axes are window axes, the start index names operand axis 2. -/
abbrev bandDims : ScatterDims S32x1024x3072 S1 S32x1024x1024 := scatter_S32x1024x3072_S1_S32x1024x1024_012_n_2_0

theorem start_batch (j : S32x1024x1024.Idx) (idx : IVec S1 32) : bandDims.start j idx 0 = 0 := by
  unfold ScatterDims.start
  rw [dif_neg (show ¬(0 : Fin S32x1024x3072.rank) ∈ bandDims.scatterDimsToOperandDims by decide)]

theorem start_token (j : S32x1024x1024.Idx) (idx : IVec S1 32) : bandDims.start j idx 1 = 0 := by
  unfold ScatterDims.start
  rw [dif_neg (show ¬(1 : Fin S32x1024x3072.rank) ∈ bandDims.scatterDimsToOperandDims by decide)]

theorem start_col (j : S32x1024x1024.Idx) (idx : IVec S1 32) (c : BitVec 32) (hidx : ∀ k, idx k = c) :
    bandDims.start j idx 2 = c.toInt := by
  unfold ScatterDims.start
  rw [dif_pos (show (2 : Fin S32x1024x3072.rank) ∈ bandDims.scatterDimsToOperandDims by decide), hidx]

theorem window_batch (j : S32x1024x1024.Idx) : bandDims.window j 0 = (j 0).val := by
  unfold ScatterDims.window
  rw [dif_pos (show (0 : Fin S32x1024x3072.rank) ∈ bandDims.sKept by decide)]
  rfl

theorem window_token (j : S32x1024x1024.Idx) : bandDims.window j 1 = (j 1).val := by
  unfold ScatterDims.window
  rw [dif_pos (show (1 : Fin S32x1024x3072.rank) ∈ bandDims.sKept by decide)]
  rfl

theorem window_col (j : S32x1024x1024.Idx) : bandDims.window j 2 = (j 2).val := by
  unfold ScatterDims.window
  rw [dif_pos (show (2 : Fin S32x1024x3072.rank) ∈ bandDims.sKept by decide)]
  rfl

/-- Update `(b, n, h)` lands on `(b, n, c + h)`. -/
theorem lands_iff (j : S32x1024x1024.Idx) (idx : IVec S1 32) (c : BitVec 32) (cn : Nat) (hc : c.toInt = cn)
    (hidx : ∀ k, idx k = c) (i : S32x1024x3072.Idx) :
    bandDims.resultIdx? j idx = some i
      ↔ (i 0).val = (j 0).val ∧ (i 1).val = (j 1).val ∧ (i 2).val = cn + (j 2).val := by
  rw [ScatterDims.resultIdx?_eq_some_iff]
  constructor
  · intro h
    have h0 := h 0
    have h1 := h 1
    have h2 := h 2
    rw [start_batch, window_batch] at h0
    rw [start_token, window_token] at h1
    rw [start_col j idx c hidx, window_col, hc] at h2
    omega
  · rintro ⟨h0, h1, h2⟩ a
    match a with
    | ⟨0, _⟩ =>
      show ((i 0).val : Int) = bandDims.start j idx 0 + bandDims.window j 0
      rw [start_batch, window_batch]; omega
    | ⟨1, _⟩ =>
      show ((i 1).val : Int) = bandDims.start j idx 1 + bandDims.window j 1
      rw [start_token, window_token]; omega
    | ⟨2, _⟩ =>
      show ((i 2).val : Int) = bandDims.start j idx 2 + bandDims.window j 2
      rw [start_col j idx c hidx, window_col, hc]; omega

/-- The array after one band update, at entry `(b, n, o)`. -/
theorem band_add_apply (X : FVec Ideal S32x1024x3072 .f32) (idx : IVec S1 32) (c : BitVec 32) (cn : Nat) (hc : c.toInt = cn)
    (hidx : ∀ k, idx k = c) (U : FVec Ideal S32x1024x1024 .f32) (b : Fin 32) (n : Fin 1024) (o : Fin 3072) :
    Host.scatter bandDims FloatOps.addf X idx U (ix3 b n o)
      = if h : cn ≤ o.val ∧ o.val < cn + 1024 then X (ix3 b n o) + U (ix3 b n ⟨o.val - cn, by omega⟩) else X (ix3 b n o) := by
  split
  · rename_i h
    refine Host.scatter_apply_of_hit bandDims FloatOps.addf X idx U (ix3 b n o) (ix3 b n ⟨o.val - cn, by omega⟩) ?_ ?_
    · rw [lands_iff _ idx c cn hc hidx]
      exact ⟨rfl, rfl, by show o.val = cn + (o.val - cn); omega⟩
    · intro j' hj'
      rw [lands_iff _ idx c cn hc hidx] at hj'
      rw [eq_ix3 j']
      have e0 : b.val = (j' 0).val := hj'.1
      have e1 : n.val = (j' 1).val := hj'.2.1
      have e2 : o.val = cn + (j' 2).val := hj'.2.2
      congr 1
      · exact Fin.ext e0.symm
      · exact Fin.ext e1.symm
      · exact Fin.ext (by show (j' 2).val = o.val - cn; omega)
  · rename_i h
    refine Host.scatter_apply_of_miss bandDims FloatOps.addf X idx U (ix3 b n o) fun j hj => h ?_
    rw [lands_iff _ idx c cn hc hidx] at hj
    have e2 : o.val = cn + (j 2).val := hj.2.2
    have hlt : (j 2).val < 1024 := (j 2).isLt
    omega

end Cert.ReferenceIdeal.ColBands

end
-- ==== Proof.LowRankLaw.lean ====
/-
  The law that joins the two programs: a low-rank term may be folded into the weight before the contraction.

  For finite numbers, with `x` a row of activations, `W` a row of the weight, `b` its bias, and `B · A` a rank-R
  correction of that row (`B` its R coefficients, `A` an R × K matrix),

      Σ_k x_k · (W_k + Σ_r B_r · A_rk) + b  =  (Σ_k x_k · W_k + b) + Σ_r (Σ_k x_k · A_rk) · B_r .

  Distributing `x_k` over a sum and exchanging the two sums are laws of the reals, not of the extended reals (they fail
  at the infinities), so the law is proved on ℝ and carried to extended reals that are all finite.
-/
import Idealize.ShloMosaic.PureOps.Ideal

namespace Cert.LowRankLaw

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals. -/
theorem fold_real {K R : Type} [Fintype K] [Fintype R] (x W : K → ℝ) (b : ℝ) (A : R → K → ℝ) (B : R → ℝ) :
    (∑ k, x k * (W k + ∑ r, B r * A r k)) + b = ((∑ k, x k * W k) + b) + ∑ r, (∑ k, x k * A r k) * B r := by
  have e : ∑ k, x k * ∑ r, B r * A r k = ∑ r, (∑ k, x k * A r k) * B r := by
    simp only [Finset.mul_sum, Finset.sum_mul]
    rw [Finset.sum_comm]
    exact Finset.sum_congr rfl fun r _ => Finset.sum_congr rfl fun k _ => by ring
  simp only [mul_add, Finset.sum_add_distrib, e]
  ring

/-- The law on extended reals that are all finite. -/
theorem fold {K R : Type} [Fintype K] [Fintype R] (x W : K → EReal) (b : EReal) (A : R → K → EReal) (B : R → EReal)
    (hx : ∀ k, ∃ v : ℝ, x k = v) (hW : ∀ k, ∃ v : ℝ, W k = v) (hb : ∃ v : ℝ, b = v)
    (hA : ∀ r k, ∃ v : ℝ, A r k = v) (hB : ∀ r, ∃ v : ℝ, B r = v) :
    (∑ k, x k * (W k + ∑ r, B r * A r k)) + b = ((∑ k, x k * W k) + b) + ∑ r, (∑ k, x k * A r k) * B r := by
  choose x' hx using hx
  choose W' hW using hW
  obtain ⟨b', rfl⟩ := hb
  choose A' hA using hA
  choose B' hB using hB
  simp only [hx, hW, hA, hB, ← EReal.coe_mul, ← coe_sum, ← EReal.coe_add]
  exact congrArg _ (fold_real x' W' b' A' B')

end Cert.LowRankLaw
-- ==== Proof.RefIsSpec.lean ====
/-
  The reference computes the specification.

  The reference projects with the plain weight, adds the bias, and then adds onto the query columns (0 … 1023) and the
  value columns (2048 … 3071) of the result the scaled rank-16 products of the ACTIVATIONS, `((x A^T) B^T) · s`. Entry by
  entry this is the specification's `Σ_k x_k · (W_k + s · Σ_r B_r A_rk) + b` by the low-rank law — which distributes a
  product over a sum and exchanges two sums, so it is used on finite arguments only; on the key columns the two sides are
  the same term.
-/
import proofs.«157013_j66872640799074_2_alg».proof.Proof.Gen.ReferenceIdeal.Read
import proofs.«157013_j66872640799074_2_alg».proof.Proof.ColBands
import proofs.«157013_j66872640799074_2_alg».proof.Proof.LowRankLaw
import proofs.«157013_j66872640799074_2_alg».proof.Proof.Spec
import Idealize.ShloMosaic.Lib.ValueIdx

noncomputable section

namespace Cert.ReferenceIdeal.RefIsSpec

open Idealize.ShloMosaic Idealize.ShloMosaic.ValueIdx Cert.ReferenceIdeal Cert.ReferenceIdeal.Read Cert.QkvSpec

variable (x0 : (⟨S32x1024x1024, .f32⟩ : BufTy).Contents (Elt Ideal)) (x1 : (⟨S3072x1024, .f32⟩ : BufTy).Contents (Elt Ideal))
  (x2 : (⟨S3072, .f32⟩ : BufTy).Contents (Elt Ideal))

/-- The plain projection with its bias, at `(β, n, o)`. -/
theorem base_apply (β : Fin 32) (n : Fin 1024) (o : Fin 3072) :
    val_main_v3 (F := Ideal) x0 x1 x2 (ix3 β n o) = (∑ k : Fin 1024, x0 (ix3 β n k) * x1 (ix2 o k)) + x2 (ix1 o) := by
  have el : ∀ k : Fin 1024, lidx_main_v0 (ix3 β n o) k = ix3 β n k := fun k => funext fun a => Fin.ext (by
    match a with | ⟨0, _⟩ => rfl | ⟨1, _⟩ => rfl | ⟨2, _⟩ => rfl)
  have er : ∀ k : Fin 1024, ridx_main_v0 (ix3 β n o) k = ix2 o k := fun k => funext fun a => Fin.ext (by
    match a with | ⟨0, _⟩ => rfl | ⟨1, _⟩ => rfl)
  have eb : idx_main_v1 (idx_main_v2 (ix3 β n o)) = ix1 o := funext fun a => Fin.ext (by
    match a with | ⟨0, _⟩ => rfl)
  rw [val_main_v3_apply, val_main_v0_apply, val_main_v2_apply, val_main_v1_apply]
  simp only [el, er, eb]
  rfl

/-- The first contraction, activations against `A`, at `(β, n, r)`. -/
theorem proj_apply (A : (⟨S16x1024, .f32⟩ : BufTy).Contents (Elt Ideal)) (β : Fin 32) (n : Fin 1024) (r : Fin 16) :
    val_main_v4 (F := Ideal) x0 A (ix3 β n r) = ∑ k : Fin 1024, x0 (ix3 β n k) * A (ix2 r k) := by
  have el : ∀ k : Fin 1024, lidx_main_v4 (ix3 β n r) k = ix3 β n k := fun k => funext fun a => Fin.ext (by
    match a with | ⟨0, _⟩ => rfl | ⟨1, _⟩ => rfl | ⟨2, _⟩ => rfl)
  have er : ∀ k : Fin 1024, ridx_main_v4 (ix3 β n r) k = ix2 r k := fun k => funext fun a => Fin.ext (by
    match a with | ⟨0, _⟩ => rfl | ⟨1, _⟩ => rfl)
  rw [val_main_v4_apply]
  simp only [el, er]

/-- The query correction, at `(β, n, h)`. -/
theorem query_apply (x3 : (⟨S16x1024, .f32⟩ : BufTy).Contents (Elt Ideal)) (x4 : (⟨S1024x16, .f32⟩ : BufTy).Contents (Elt Ideal))
    (β : Fin 32) (n : Fin 1024) (h : Fin 1024) :
    val_main_v7 (F := Ideal) x0 x3 x4 (ix3 β n h)
      = (∑ r : Fin 16, (∑ k : Fin 1024, x0 (ix3 β n k) * x3 (ix2 r k)) * x4 (ix2 h r)) * scale := by
  have el : ∀ r : Fin 16, lidx_main_v5 (ix3 β n h) r = ix3 β n r := fun r => funext fun a => Fin.ext (by
    match a with | ⟨0, _⟩ => rfl | ⟨1, _⟩ => rfl | ⟨2, _⟩ => rfl)
  have er : ∀ r : Fin 16, ridx_main_v5 (ix3 β n h) r = ix2 h r := fun r => funext fun a => Fin.ext (by
    match a with | ⟨0, _⟩ => rfl | ⟨1, _⟩ => rfl)
  rw [val_main_v7_apply, val_main_v5_apply, val_main_v6_apply, val_main_cst_apply]
  simp only [el, er, proj_apply]
  rfl

/-- The value correction, at `(β, n, h)`: the same stage over the other pair. -/
theorem value_apply (x5 : (⟨S16x1024, .f32⟩ : BufTy).Contents (Elt Ideal)) (x6 : (⟨S1024x16, .f32⟩ : BufTy).Contents (Elt Ideal))
    (β : Fin 32) (n : Fin 1024) (h : Fin 1024) :
    val_main_v11 (F := Ideal) x0 x5 x6 (ix3 β n h)
      = (∑ r : Fin 16, (∑ k : Fin 1024, x0 (ix3 β n k) * x5 (ix2 r k)) * x6 (ix2 h r)) * scale := by
  have el : ∀ r : Fin 16, lidx_main_v9 (ix3 β n h) r = ix3 β n r := fun r => funext fun a => Fin.ext (by
    match a with | ⟨0, _⟩ => rfl | ⟨1, _⟩ => rfl | ⟨2, _⟩ => rfl)
  have er : ∀ r : Fin 16, ridx_main_v9 (ix3 β n h) r = ix2 h r := fun r => funext fun a => Fin.ext (by
    match a with | ⟨0, _⟩ => rfl | ⟨1, _⟩ => rfl)
  have ep : ∀ r : Fin 16, val_main_v8 (F := Ideal) x0 x5 (ix3 β n r) = ∑ k : Fin 1024, x0 (ix3 β n k) * x5 (ix2 r k) :=
    fun r => proj_apply x0 x5 β n r
  rw [val_main_v11_apply, val_main_v9_apply, val_main_v10_apply, val_main_cst_0_apply]
  simp only [el, er, ep]
  rfl

variable (x3 : (⟨S16x1024, .f32⟩ : BufTy).Contents (Elt Ideal)) (x4 : (⟨S1024x16, .f32⟩ : BufTy).Contents (Elt Ideal))
  (x5 : (⟨S16x1024, .f32⟩ : BufTy).Contents (Elt Ideal)) (x6 : (⟨S1024x16, .f32⟩ : BufTy).Contents (Elt Ideal))

/-- The reference's result at `(β, n, o)`: the base, plus the query correction on columns 0 … 1023, plus the value
    correction on columns 2048 … 3071. -/
theorem ref_apply (β : Fin 32) (n : Fin 1024) (o : Fin 3072) :
    val_main_v15 (F := Ideal) x0 x1 x2 x3 x4 x5 x6 (ix3 β n o)
      = if h2 : 2048 ≤ o.val ∧ o.val < 2048 + 1024 then
          (if h0 : 0 ≤ o.val ∧ o.val < 0 + 1024 then
              val_main_v3 (F := Ideal) x0 x1 x2 (ix3 β n o) + val_main_v7 (F := Ideal) x0 x3 x4 (ix3 β n ⟨o.val - 0, by omega⟩)
            else val_main_v3 (F := Ideal) x0 x1 x2 (ix3 β n o))
            + val_main_v11 (F := Ideal) x0 x5 x6 (ix3 β n ⟨o.val - 2048, by omega⟩)
        else
          (if h0 : 0 ≤ o.val ∧ o.val < 0 + 1024 then
              val_main_v3 (F := Ideal) x0 x1 x2 (ix3 β n o) + val_main_v7 (F := Ideal) x0 x3 x4 (ix3 β n ⟨o.val - 0, by omega⟩)
            else val_main_v3 (F := Ideal) x0 x1 x2 (ix3 β n o)) := by
  have e13 := ColBands.band_add_apply (val_main_v3 (F := Ideal) x0 x1 x2) (val_main_v12 (F := Ideal)) 0#32 0 rfl
    (fun _ => rfl) (val_main_v7 (F := Ideal) x0 x3 x4) β n o
  have e15 := ColBands.band_add_apply (val_main_v13 (F := Ideal) x0 x1 x2 x3 x4) (val_main_v14 (F := Ideal)) 2048#32 2048 rfl
    (fun _ => rfl) (val_main_v11 (F := Ideal) x0 x5 x6) β n o
  refine e15.trans ?_
  rw [show val_main_v13 (F := Ideal) x0 x1 x2 x3 x4 (ix3 β n o) = _ from e13]

/-- THE REFERENCE IS THE SPECIFICATION, on finite arguments. -/
theorem ref_eq_spec (h0 : AllFinite x0) (h1 : AllFinite x1) (h2 : AllFinite x2) (h3 : AllFinite x3) (h4 : AllFinite x4)
    (h5 : AllFinite x5) (h6 : AllFinite x6) :
    val_main_v15 (F := Ideal) x0 x1 x2 x3 x4 x5 x6 = out x0 x1 x2 x3 x4 x5 x6 := by
  funext i
  obtain ⟨β, n, o, rfl⟩ : ∃ (β : Fin 32) (n : Fin 1024) (o : Fin 3072), i = ix3 β n o := ⟨i 0, i 1, i 2, eq_ix3 i⟩
  rw [ref_apply]
  show _ = (∑ k : Fin 1024, x0 (ix3 β n k) * effWeight x1 x3 x4 x5 x6 (ix2 o k)) + x2 (ix1 o)
  by_cases hq : o.val < 1024
  · -- a query column
    have hb2 : ¬(2048 ≤ o.val ∧ o.val < 2048 + 1024) := by omega
    have hb0 : 0 ≤ o.val ∧ o.val < 0 + 1024 := by omega
    rw [dif_neg hb2, dif_pos hb0, base_apply, query_apply]
    simp only [effWeight_query x1 x3 x4 x5 x6 o _ hq, scale_eq_one, one_mul, mul_one]
    exact (LowRankLaw.fold (fun k => x0 (ix3 β n k)) (fun k => x1 (ix2 o k)) (x2 (ix1 o)) (fun r k => x3 (ix2 r k))
      (fun r => x4 (ix2 ⟨o.val, hq⟩ r)) (fun k => h0 _) (fun k => h1 _) (h2 _) (fun r k => h3 _) (fun r => h4 _)).symm
  · by_cases hv : 2048 ≤ o.val
    · -- a value column
      have hb2 : 2048 ≤ o.val ∧ o.val < 2048 + 1024 := by have := o.isLt; omega
      have hb0 : ¬(0 ≤ o.val ∧ o.val < 0 + 1024) := by omega
      rw [dif_pos hb2, dif_neg hb0, base_apply, value_apply]
      simp only [effWeight_value x1 x3 x4 x5 x6 o _ hv, scale_eq_one, one_mul, mul_one]
      exact (LowRankLaw.fold (fun k => x0 (ix3 β n k)) (fun k => x1 (ix2 o k)) (x2 (ix1 o)) (fun r k => x5 (ix2 r k))
        (fun r => x6 (ix2 ⟨o.val - 2048, by have := o.isLt; omega⟩ r)) (fun k => h0 _) (fun k => h1 _) (h2 _) (fun r k => h5 _)
        (fun r => h6 _)).symm
    · -- a key column
      have hb2 : ¬(2048 ≤ o.val ∧ o.val < 2048 + 1024) := by omega
      have hb0 : ¬(0 ≤ o.val ∧ o.val < 0 + 1024) := by omega
      rw [dif_neg hb2, dif_neg hb0, base_apply]
      simp only [effWeight_key x1 x3 x4 x5 x6 o _ (by omega) (by omega)]

end Cert.ReferenceIdeal.RefIsSpec

end
-- ==== Proof.lean ====
/-
  The fused query/key/value projection with two rank-16 corrections: the kernel program against its reference.

  Both programs compute, for activations `x`, a weight `W`, a bias `b` and two rank-16 pairs `(A_q, B_q)`, `(A_v, B_v)`,

      out (β, n, o) = Σ_k x (β, n, k) · W (o, k) + b (o) + [the correction of o's band],

  the correction being `Σ_r (Σ_k x (β, n, k) · A (r, k)) · B (o', r)` on the query band (o' = o < 1024, pair q) and on the
  value band (o' = o - 2048 ≥ 0, pair v), and nothing on the key band. The reference adds the correction to the projected
  activations; the kernel program folds `B A` into the weight first and runs ONE product, in blocks of 512 rows. The two
  agree by distributing `x_k` over the folded weight and exchanging the two sums (Proof/LowRankLaw.lean): laws of the reals,
  which is where the precondition — every input finite — is used (Proof/Finite.lean).

  The modules: Proof/Spec.lean states the result as one function of the arguments (the kernel's form); Proof/LibScatter.lean
  reads a host scatter at an index, Proof/RowBands.lean and Proof/ColBands.lean the two band updates each program makes
  with it; Proof/Staged.lean, Proof/Block.lean, Proof/Blocks.lean, Proof/Result.lean and Proof/Tail.lean carry the kernel
  program's run to the specification; Proof/RefIsSpec.lean shows that the reference's term is the specification.
-/
import proofs.«157013_j66872640799074_2_alg».proof.Defs
import proofs.«157013_j66872640799074_2_alg».proof.Proof.Gen.Kernel
import proofs.«157013_j66872640799074_2_alg».proof.Proof.Gen.Kernel.Skeleton
import proofs.«157013_j66872640799074_2_alg».proof.Proof.Gen.Kernel.Launch
import proofs.«157013_j66872640799074_2_alg».proof.Proof.Gen.Kernel.Points
import proofs.«157013_j66872640799074_2_alg».proof.Proof.Gen.Kernel.Frame
import proofs.«157013_j66872640799074_2_alg».proof.Proof.Gen.KernelIdeal
import proofs.«157013_j66872640799074_2_alg».proof.Proof.Gen.KernelIdeal.Skeleton
import proofs.«157013_j66872640799074_2_alg».proof.Proof.Gen.KernelIdeal.Launch
import proofs.«157013_j66872640799074_2_alg».proof.Proof.Gen.KernelIdeal.Points
import proofs.«157013_j66872640799074_2_alg».proof.Proof.Gen.KernelIdeal.Frame
import proofs.«157013_j66872640799074_2_alg».proof.Proof.Gen.ReferenceIdeal
import proofs.«157013_j66872640799074_2_alg».proof.Proof.Gen.Pre_finite_inputs
import proofs.«157013_j66872640799074_2_alg».proof.Proof.Gen.ReferenceIdeal.Run
import proofs.«157013_j66872640799074_2_alg».proof.Proof.Gen.ReferenceIdeal.Read
import Idealize.ShloMosaic.Adequacy
import Idealize.ShloMosaic.Init
import proofs.«157013_j66872640799074_2_alg».proof.Proof.Spec
import proofs.«157013_j66872640799074_2_alg».proof.Proof.Finite
import proofs.«157013_j66872640799074_2_alg».proof.Proof.Tail
import proofs.«157013_j66872640799074_2_alg».proof.Proof.RefIsSpec

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the (finite) arguments both idealized programs end with the specification of those
    arguments in their result: the kernel program by its run, the reference because its term is the specification. -/
theorem algebraic : Cert.algebraic_KernelIdeal_ReferenceIdeal := by
  intro m ρ m' ρ' hpre hagree
  refine ⟨fun c => Cert.KernelIdeal.Result.spec m c, Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨f0, f1, f2, f3, f4, f5, f6⟩ := Cert.Pre_finite_inputs.Decode.all_finite _ _ _ _ _ _ _ (hpre c)
  rw [(h c).1, Cert.ReferenceIdeal.Read.val_main_v15_eq, (hagree c).1, (hagree c).2.1, (hagree c).2.2.1,
    (hagree c).2.2.2.1, (hagree c).2.2.2.2.1, (hagree c).2.2.2.2.2.1, (hagree c).2.2.2.2.2.2]
  exact Cert.ReferenceIdeal.RefIsSpec.ref_eq_spec _ _ _ _ _ _ _ f0 f1 f2 f3 f4 f5 f6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
